-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S8192x128 .f32) : IVec S_ 1 :=
  let main_v0 : FVec F S8192x128 .f32 := Host.absf main_arg1
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 8191#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S8192x128 : Shape := ⟨2, ![8192, 128]⟩
abbrev S16384x128 : Shape := ⟨2, ![16384, 128]⟩
abbrev S512 : Shape := ⟨1, ![512]⟩
abbrev S512x128 : Shape := ⟨2, ![512, 128]⟩
abbrev S_ : Shape := ⟨0, ![]⟩
abbrev S16384x128x1 : Shape := ⟨3, ![16384, 128, 1]⟩

abbrev nBuf : Table → Nat
  | .hbm => 4
  | .local .scVector .vmem => 2
  | _ => 0

abbrev bufTy : (tb : Table) → Fin (nBuf tb) → BufTy
  | .hbm, ⟨0, _⟩ => ⟨S16384, .i32⟩
  | .hbm, ⟨1, _⟩ => ⟨S8192x128, .f32⟩
  | .hbm, ⟨2, _⟩ => ⟨S16384x128, .f32⟩
  | .hbm, ⟨3, _⟩ => ⟨S16384x128x1, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S8192x128_S8192x128_0_0 : ∀ a, (![0, 0] : Fin 2 → Nat) a + S8192x128.size a ≤ S8192x128.size a
  gathers_S8192x128_S512x128 : S8192x128.Gathers 0 S512x128
  bcast_S16384x128_S16384x128x1_0_1 : S16384x128.BroadcastsInDim S16384x128x1 (![0, 1] : Fin 2 → Fin S16384x128x1.rank)
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S8192x128 : Shape := ⟨2, ![8192, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x128x1 : Shape := ⟨3, ![16384, 128, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S8192x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | .hbm, ⟨25, _⟩ => ⟨S16384x128x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  gather_S8192x128_S16384x1_S16384x128_1_0_n_n_0_1_1128_wf : GatherDims.WF S8192x128 S16384x1 S16384x128 [1] [0] [] [0] [] 1 ![1, 128]

variable [Facts₀]

def gather_S8192x128_S16384x1_S16384x128_1_0_n_n_0_1_1128 : GatherDims S8192x128 S16384x1 S16384x128 where
  offsetDims := [1]
  collapsedSliceDims := [0]
  operandBatchingDims := []
  startIndicesBatchingDims := []
  startIndexMap := [0]
  indexVectorDim := 1
  sliceSizes := ![1, 128]
  wf := gather_S8192x128_S16384x1_S16384x128_1_0_n_n_0_1_1128_wf

class Facts : Prop extends Facts₀ where

variable [Facts]
-- ==== Proof.Spec.lean ====
/-
  What both programs compute, as one function of the two argument arrays: a list of 16384 row numbers and a table of
  8192 rows of 128 floats give the array whose row `p` is the row of the table that entry `p` of the list names, with a
  trailing axis of extent one. The function is stated for any element type: nothing is computed, elements are only moved.
-/
import Idealize.ShloMosaic.Lib.ValueIdx

namespace Cert.Proof.Spec

open Idealize.ShloMosaic Idealize.ShloMosaic.ValueIdx

/-- The list of row numbers, the table, the looked-up rows, and the same with the trailing unit axis. -/
abbrev SL : Shape := ⟨1, ![16384]⟩
abbrev ST : Shape := ⟨2, ![8192, 128]⟩
abbrev SO : Shape := ⟨2, ![16384, 128]⟩
abbrev SR : Shape := ⟨3, ![16384, 128, 1]⟩

/-- Every entry of the list names a row of the table. -/
def InRange (idx : SL.Idx → BitVec 32) : Prop := ∀ j, (idx j).toNat < 8192

/-- The row of the table a word names. (A word past the table's last row is wrapped, so that the function is total; under
    `InRange` no word is.) -/
def rowOf (w : BitVec 32) : Fin 8192 := ⟨w.toNat % 8192, Nat.mod_lt _ (by decide)⟩

theorem rowOf_val_of_lt {w : BitVec 32} (h : w.toNat < 8192) : (rowOf w).val = w.toNat := Nat.mod_eq_of_lt h

/-- The looked-up rows: at `(p, j)` the table at `(list[p], j)`. -/
def rowsOf {α : Type} (idx : SL.Idx → BitVec 32) (tbl : ST.Idx → α) : SO.Idx → α :=
  fun i => tbl (ix2 (rowOf (idx (ix1 (i 0 : Fin 16384)))) (i 1 : Fin 128))

/-- The result: the looked-up rows under a trailing unit axis. -/
def G {α : Type} (idx : SL.Idx → BitVec 32) (tbl : ST.Idx → α) : SR.Idx → α :=
  fun i => rowsOf idx tbl (ix2 (i 0 : Fin 16384) (i 1 : Fin 128))

end Cert.Proof.Spec
-- ==== Proof.Setup.lean ====
/-
  The row gather on the SparseCores, set up for the launch theorem: the call's configuration, the ghost state (the
  handshakes' rounds beside the transfers' counters: the kernel only makes local copies and waits for them), the arrays and
  the pieces of them each vector subcore is handed.

  Tile `(c, s)` — SparseCore `c` of two, vector subcore `s` of sixteen — works on the 512 list entries, and the 512 result
  rows, that start at `1024 s + 512 c`: it copies its entries into its index scratch, gathers the rows of the table they
  name into its row scratch, and copies those out to its rows of the result. Every tile reads the whole table, so the table
  goes out in 32 read shares (the full share cut in two for the SparseCores, each half in sixteen); the list and the result
  go out by rows. What a tile brings back is its rows of the result AT THE ONE WHOLE-ARRAY FUNCTION `rowsOf list table`, so
  the rows join by an equation and the value needs no second pass.
-/
import proofs.«207625_g74337293959206_cont_9to1_m_975_9_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207625_g74337293959206_cont_9to1_m_975_9_alg».proof.Proof.Gen.KernelIdeal
import proofs.«207625_g74337293959206_cont_9to1_m_975_9_alg».proof.Proof.Gen.KernelIdeal.Skeleton

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The list, the table, the looked-up rows, and the result (the rows under a trailing unit axis). -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

abbrev iV : Memref Cert.KernelIdeal.sig Kind.scVector Space.hbm Cert.KernelIdeal.S16384 EltTy.i32 := Memref.whole Cert.KernelIdeal.main_arg0_scv
abbrev xV : Memref Cert.KernelIdeal.sig Kind.scVector Space.hbm Cert.KernelIdeal.S8192x128 EltTy.f32 := Memref.whole Cert.KernelIdeal.main_arg1_scv
abbrev oV : Memref Cert.KernelIdeal.sig Kind.scVector Space.hbm Cert.KernelIdeal.S16384x128 EltTy.f32 := Memref.whole Cert.KernelIdeal.main_v0_scv
abbrev sV : Memref Cert.KernelIdeal.sig Kind.scVector Space.vmem Cert.KernelIdeal.S512 EltTy.i32 := Memref.whole Cert.KernelIdeal.cc0_scratch0
abbrev rV : Memref Cert.KernelIdeal.sig Kind.scVector Space.vmem Cert.KernelIdeal.S512x128 EltTy.f32 := Memref.whole Cert.KernelIdeal.cc0_scratch1

/-! ## A tile's place and its rows -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The 512 list entries and the 512 result rows of the tile at `L`, as the kernel slices them, and the whole table. -/
abbrev irowK (L : grid0.Coords) : Rect S16384 := Rect.unit (s := S16384) (k0_off1 L) S512.size (k0_off1_inb L)
abbrev orowK (L : grid0.Coords) : Rect S16384x128 := Rect.unit (s := S16384x128) (k0_off2 L) S512x128.size (k0_off2_inb L)
abbrev iRowK (L : grid0.Coords) : Memref sig .scVector .hbm S512 .i32 := (iV).slice (irowK L) (fun _ => rfl)
abbrev oRowK (L : grid0.Coords) : Memref sig .scVector .hbm S512x128 .f32 := (oV).slice (orowK L) (fun _ => rfl)
abbrev xAllK : Memref sig .scVector .hbm S8192x128 .f32 :=
  (xV).slice (Rect.unit (s := S8192x128) ![0, 0] S8192x128.size inb_S8192x128_S8192x128_0_0) (fun _ => rfl)
abbrev iRowSet (L : grid0.Coords) : Finset S16384.Idx := (iRowK L).view.set
abbrev oRowSet (L : grid0.Coords) : Finset S16384x128.Idx := (oRowK L).view.set

/-- The tile's read share of the table: the full share cut in two, that half in sixteen. -/
def xq (L : grid0.Coords) : PosShare TreeShare :=
  pieceOf (pieceOf fullShare 2 (by decide) (L 0)) 16 (by decide) (L 1)

variable [FloatOps F]

/-! ## What the handshakes carry -/

/-- The rows every tile's result is a piece of: row `p` is the table's row that entry `p` of the list names. -/
def Gout (d : Dev nD) : Buf (Elt F) (oLoc d) := Spec.rowsOf (m (iLoc d)) (m (xLoc d))

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (L : grid0.Coords) : sProp 𝕄 := iLoc d ↦[iRowSet L]{fullShare} m (iLoc d)
abbrev xShPts (d : Dev nD) (L : grid0.Coords) : sProp 𝕄 := xLoc d ↦{xq L} m (xLoc d)
abbrev oRowPts (d : Dev nD) (L : grid0.Coords) (f : Buf (Elt F) (oLoc d)) : sProp 𝕄 := oLoc d ↦[oRowSet L]{fullShare} f

/-- What the tile at `L` is handed — its list entries, its share of the table, its rows of the result as launched — and what
    it hands back: the same, its rows of the result now the looked-up rows. -/
abbrev tileIn (d : Dev nD) (L : grid0.Coords) : sProp 𝕄 := iprop(iRowPts m d L ∗ xShPts m d L ∗ oRowPts d L (m (oLoc d)))
abbrev tileOut (d : Dev nD) (L : grid0.Coords) : sProp 𝕄 := iprop(iRowPts m d L ∗ xShPts m d L ∗ oRowPts d L (Gout m d))

/-- The one call hands each SparseCore its sixteen tiles' pieces, and gets them back. -/
def P : (K (F := F)).Pay (nD := nD) (Val := Elt F) (Name := ℕ) (U := UU) where
  st := fun q d c => match q with | 0 => bigSep Finset.univ fun i : Fin 16 => tileIn m d (coordsV (Fin.cast nCore_zero c) i)
  dn := fun q d c => match q with | 0 => bigSep Finset.univ fun i : Fin 16 => tileOut m d (coordsV (Fin.cast nCore_zero c) i)
  go := fun q d c i => match q with | 0 => tileIn m d (coordsV (Fin.cast nCore_zero c) (Fin.cast nSub_zero i))
  td := fun q d c i => match q with | 0 => tileOut m d (coordsV (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => tileIn m d (coordsV (Fin.cast nCore_zero c) i)))
  dn q d c := match q with
    | 0 => (inferInstance : BI.Storable (upEmb : UEmb _ 𝕄) (bigSep Finset.univ fun i : Fin 16 => tileOut m d (coordsV (Fin.cast nCore_zero c) i)))
  go q d c i := match q with
    | 0 => (inferInstance : BI.Storable (upEmb : UEmb _ 𝕄) (tileIn m d (coordsV (Fin.cast nCore_zero c) (Fin.cast nSub_zero i))))
  td q d c i := match q with
    | 0 => (inferInstance : BI.Storable (upEmb : UEmb _ 𝕄) (tileOut m d (coordsV (Fin.cast nCore_zero c) (Fin.cast nSub_zero i))))

/-- What the proof asks of the launch memory: every entry of the list names a row of the table. -/
def PreOK : Prop := ∀ d : Dev nD, Spec.InRange (m (iLoc d))

end Cert.Proof.Gather

end
-- ==== Proof.TileValue.lean ====
/-
  What the tile at `L` leaves in its rows of the result, index by index. The index scratch holds the tile's 512 list entries;
  the gather writes row `k` of the row scratch with the table's row that entry `k` names; the copy out puts row `k` of the row
  scratch at row `1024 (L 1) + 512 (L 0) + k` of the result, which is where entry `k` of the tile sits in the list. So the
  result at `(p, j)`, `p` a row of the tile, is the table at `(list[p], j)`.
-/
import proofs.«207625_g74337293959206_cont_9to1_m_975_9_alg».proof.Proof.Setup

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable (d : Dev nD) (L : grid0.Coords)

/-- The index scratch after the list copy has landed, read at entry `x`: the list at the tile's entry `x`. -/
theorem list_read (fs : Buf (Elt F) ((V d (cV L) (jV L)).loc cc0_scratch0)) (x : S512.Idx) :
    (sV).view.read (Elt F) (View.write (Elt F) (sV).view fs ((iRowK L).view.read (Elt F) (m (iLoc d))) Finset.univ) x
      = m (iLoc d) ((iRowK L).view.emb x) := by
  rw [View.read_write_univ]
  exact (View.read_apply _ _).trans (cast_eq _ _)

/-- The tile's entry `x` is entry `1024 (L 1) + 512 (L 0) + x` of the list, -/
theorem iRow_emb_val (x : S512.Idx) : ((iRowK L).view.emb x 0).val = 1024 * (L 1).val + 512 * (L 0).val + (x 0).val := by
  show (k0_off1 L) 0 + 1 * (x 0).val = _
  rw [k0_off1_eq]; simp
/-- and its row `y` is that row of the result, column for column. -/
theorem oRow_emb_val0 (y : S512x128.Idx) : ((oRowK L).view.emb y 0).val = 1024 * (L 1).val + 512 * (L 0).val + (y 0).val := by
  show (k0_off2 L) 0 + 1 * (y 0).val = _
  rw [k0_off2_eq]; simp
theorem oRow_emb_val1 (y : S512x128.Idx) : ((oRowK L).view.emb y 1).val = (y 1).val := by
  show (k0_off2 L) 1 + 1 * (y 1).val = _
  rw [k0_off2_eq]; simp

/-- The whole table, sliced whole, is indexed as the table. -/
theorem xAll_emb (z : S8192x128.Idx) : (xAllK).view.emb z = z := by
  funext a; apply Fin.ext
  match a with
  | ⟨0, _⟩ => show 0 + 1 * (z 0).val = (z 0).val; omega
  | ⟨1, _⟩ => show 0 + 1 * (z 1).val = (z 1).val; omega

/-- Entry `k` of the tile, counted along the index scratch, sits in the list where row `k` of the tile sits in the result. -/
theorem entry_idx (hn : S512.numel = S512x128.size gathers_S8192x128_S512x128.axis') (y : S512x128.Idx) :
    (iRowK L).view.emb (S512.rowMajor.symm ((y gathers_S8192x128_S512x128.axis').cast hn.symm))
      = ValueIdx.ix1 ((oRowK L).view.emb y 0 : Fin 16384) := by
  have hk := Shape.rowMajor_val_one (S512.rowMajor.symm ((y gathers_S8192x128_S512x128.axis').cast hn.symm))
  rw [Equiv.apply_symm_apply] at hk
  funext a; apply Fin.ext
  match a with
  | ⟨0, _⟩ =>
    show ((iRowK L).view.emb _ 0).val = ((oRowK L).view.emb y 0).val
    rw [iRow_emb_val, oRow_emb_val0, ← hk]; rfl

theorem out_value (hpre : PreOK m) (hn : S512.numel = S512x128.size gathers_S8192x128_S512x128.axis') (fs : Buf (Elt F) ((V d (cV L) (jV L)).loc cc0_scratch0)) (fr : Buf (Elt F) ((V d (cV L) (jV L)).loc cc0_scratch1))
    (hin : ∀ x, ((sV).view.read (Elt F) (View.write (Elt F) (sV).view fs ((iRowK L).view.read (Elt F) (m (iLoc d))) Finset.univ) x).toNat
      < S8192x128.size gathers_S8192x128_S512x128.axis) :
    ∀ i ∈ (oRowK L).view.set,
      (oRowK L).view.writes (Elt F) (m (oLoc d)) [⟨Rect.whole S512x128,
        ReadAs.same.apply ((rV).view.read (Elt F) ((rV).view.writes (Elt F) fr [⟨Rect.whole S512x128,
          SparseCore.gatherPayload gathers_S8192x128_S512x128 ((xAllK).view.read (Elt F) (m (xLoc d)))
            (SparseCore.rows ((sV).view.read (Elt F) (View.write (Elt F) (sV).view fs ((iRowK L).view.read (Elt F) (m (iLoc d))) Finset.univ)) hn hin)⟩]))⟩] i
      = Gout m d i := by
  intro i hi
  obtain ⟨y, -, rfl⟩ := Finset.mem_map.mp hi
  have rd : ∀ g : (oRowK L).view.ty.Contents (Elt F), g ((oRowK L).view.emb y) = (oRowK L).view.read (Elt F) g y :=
    fun g => ((View.read_apply _ _).trans (cast_eq _ _)).symm
  refine (rd _).trans ?_
  have e1 := fun W => View.read_writes_cons_emb (Val := Elt F) (oRowK L).view (m (oLoc d)) (Rect.whole S512x128) W [] y
  simp only [Rect.emb_whole_apply] at e1
  rw [e1, ReadAs.apply_same]
  have e2 := fun W => View.read_writes_cons_emb (Val := Elt F) (rV).view fr (Rect.whole S512x128) W [] y
  simp only [Rect.emb_whole_apply] at e2
  rw [e2]
  unfold SparseCore.gatherPayload
  refine ((View.read_apply _ _).trans (cast_eq _ _)).trans ?_
  rw [xAll_emb]
  unfold Gout Spec.rowsOf
  congr 1
  funext a; apply Fin.ext
  match a with
  | ⟨0, _⟩ =>
    show (gathers_S8192x128_S512x128.idx _ y gathers_S8192x128_S512x128.axis).val = (Spec.rowOf _).val
    rw [Shape.Gathers.idx_axis, Spec.rowOf_val_of_lt (hpre d _)]
    show (View.read (Elt F) sV.view _ _).toNat = _
    rw [list_read, entry_idx L hn y] <;> rfl
  | ⟨1, _⟩ =>
    show (gathers_S8192x128_S512x128.idx _ y 1).val = ((oRowK L).view.emb y 1).val
    rw [Shape.Gathers.idx_of_ne _ _ _ _ (by decide), oRow_emb_val1]; rfl

end Cert.Proof.Gather

end
-- ==== Proof.Tile.lean ====
/-
  One tile's task, at a symbolic place: the copy of its 512 list entries into its index scratch and the wait for it, the
  gather of the table's rows those entries name into its row scratch and the wait for it, the copy of the row scratch out to
  its rows of the result and the wait for it. At the end the tile's rows of the result hold, at `(p, j)`, the table at
  `(list[p], j)`: the looked-up rows, restricted to the tile's rows.
-/
import proofs.«207625_g74337293959206_cont_9to1_m_975_9_alg».proof.Proof.TileValue

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

omit [FloatOps F] in
theorem pts_iRowK (f : Buf (Elt F) (iLoc d)) :
    ((iRowK L).view.loc (V d (cV L) (jV L)) ↦[(iRowK L).view.set]{fullShare} f : sProp 𝕄) = iLoc d ↦[iRowSet L]{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oRowSet L]{fullShare} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L iV (Memref.isWhole_whole _) xV (Memref.isWhole_whole _) oV (Memref.isWhole_whole _)
            sV (Memref.isWhole_whole _) rV (Memref.isWhole_whole _) cc0_scratch2 cc0_scoped0 cc0_scoped1)
          fun _ => iprop(tileOut m d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hin : ∀ x, ((sV).view.read (Elt F) (View.write (Elt F) (sV).view fs (tile_body.sl.dma0 m d L) Finset.univ) x).toNat
      < S8192x128.size gathers_S8192x128_S512x128.axis := fun x => by
    rw [show tile_body.sl.dma0 m d L = (iRowK L).view.read (Elt F) (m (iLoc d)) from rfl, list_read]; exact hpre d _
  sl_exec
  sl_step
  isplitl [Hi' Hx' Ho']
  · isplitl [Hi']; · iapply (Entails.of_eq (pts_iRowK (F := F) d L _)); iexact Hi'
    isplitl [Hx']; · iexact Hx'
    -- the tile's rows of the result now hold the looked-up rows
    iapply (Entails.of_eq (pointsTo_congr (ℓ := oLoc d) (I := oRowSet L) (q := fullShare) (out_value m d L hpre (by decide) fs fr hin))); iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Gather

end
-- ==== Proof.RowSets.lean ====
/-
  Which elements a tile's slices hold. The tile at SparseCore `c`, vector subcore `s` slices the list, and the result, from
  row `1024 s + 512 c` on, 512 rows long: an element of the list lies in the tile's slice exactly when its position is one
  of those 512, an element of the result exactly when its row is (every column of the row belongs to the slice).
-/
import proofs.«207625_g74337293959206_cont_9to1_m_975_9_alg».proof.Proof.Setup

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The elements of a tile's slices -/

omit [FloatOps F] in
/-- An entry of the list is in the tile's slice iff its position is one of the tile's 512. -/
theorem mem_iRowSet (L : grid0.Coords) (x : S16384.Idx) :
    x ∈ iRowSet L ↔ (1024 * (L 1).val + 512 * (L 0).val ≤ (x 0).val ∧ (x 0).val < 1024 * (L 1).val + 512 * (L 0).val + 512) := by
  show x ∈ ((View.whole (main_arg0_scv : Ref sig .scVector)).slice (irowK L)).set ↔ _
  rw [View.set_slice_whole, Rect.mem_set_unit, k0_off1_eq]
  constructor
  · intro h; exact h 0
  · intro h a
    match a with
    | 0 => exact h

omit [FloatOps F] in
/-- An element of the result is in the tile's slice iff its row is one of the tile's 512. -/
theorem mem_oRowSet (L : grid0.Coords) (x : S16384x128.Idx) :
    x ∈ oRowSet L ↔ (1024 * (L 1).val + 512 * (L 0).val ≤ (x 0).val ∧ (x 0).val < 1024 * (L 1).val + 512 * (L 0).val + 512) := by
  show x ∈ ((View.whole (main_v0_scv : Ref sig .scVector)).slice (orowK L)).set ↔ _
  rw [View.set_slice_whole, Rect.mem_set_unit, k0_off2_eq]
  constructor
  · intro h; exact h 0
  · intro h a
    match a with
    | 0 => exact h
    | 1 => exact ⟨Nat.zero_le _, by have := (x 1).isLt; simpa using this⟩

end Cert.Proof.Gather

end
-- ==== Proof.Split.lean ====
/-
  The arrays among the tiles, and back. The 32 row ranges `[1024 s + 512 c, 1024 s + 512 c + 512)`, `c < 2`, `s < 16`, are
  pairwise disjoint and cover `[0, 16384)`: row `r` lies in the range of `c = (r / 512) % 2`, `s = r / 1024`. So the list
  held whole is the list held by rows, one range per tile, and so is the result (every tile's rows at the one whole-array
  contents, so the joins are equations). The table held at the full share is held at once at the 2 x 16 pieces the share
  is cut into. What the call hands the two SparseCores together is therefore the three arrays held whole, and what they
  hand back is the same with the result's contents the looked-up rows.
-/
import proofs.«207625_g74337293959206_cont_9to1_m_975_9_alg».proof.Proof.RowSets

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The 32 tiles as one family -/

/-- The tile of SparseCore `p.1`, vector subcore `p.2`. -/
abbrev tl (p : Fin 2 × Fin 16) : grid0.Coords := coordsV p.1 p.2

omit [FloatOps F] in
theorem tl_0 (p : Fin 2 × Fin 16) : ((tl p) 0).val = p.1.val := rfl
omit [FloatOps F] in
theorem tl_1 (p : Fin 2 × Fin 16) : ((tl p) 1).val = p.2.val := rfl

omit [FloatOps F] in
/-- A family over the call's SparseCores is the family over `Fin 2`. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The row ranges are disjoint and cover -/

/-- Two ranges that share a row are the same tile's: `1024 s + 512 c ≤ r < 1024 s + 512 c + 512` with `c < 2`
    determines `s = r / 1024` and `c = (r / 512) % 2`. -/
theorem tile_unique {p p' : Fin 2 × Fin 16} {r : ℕ}
    (h : 1024 * p.2.val + 512 * p.1.val ≤ r ∧ r < 1024 * p.2.val + 512 * p.1.val + 512)
    (h' : 1024 * p'.2.val + 512 * p'.1.val ≤ r ∧ r < 1024 * p'.2.val + 512 * p'.1.val + 512) : p = p' := by
  have h1 := p.1.isLt; have h2 := p'.1.isLt
  exact Prod.ext (Fin.ext (by omega)) (Fin.ext (by omega))

/-- Every row below 16384 lies in some tile's range. -/
theorem tile_exists {r : ℕ} (hr : r < 16384) :
    ∃ p : Fin 2 × Fin 16, 1024 * p.2.val + 512 * p.1.val ≤ r ∧ r < 1024 * p.2.val + 512 * p.1.val + 512 :=
  ⟨(⟨r / 512 % 2, Nat.mod_lt _ (by decide)⟩, ⟨r / 1024, by omega⟩), by
    show 1024 * (r / 1024) + 512 * (r / 512 % 2) ≤ r ∧ r < 1024 * (r / 1024) + 512 * (r / 512 % 2) + 512
    omega⟩

omit [FloatOps F] in
theorem irows_disjoint : ∀ p ∈ (Finset.univ : Finset (Fin 2 × Fin 16)), ∀ p' ∈ (Finset.univ : Finset (Fin 2 × Fin 16)),
    p ≠ p' → Disjoint (iRowSet (tl p)) (iRowSet (tl p')) := by
  intro p _ p' _ hne
  rw [Finset.disjoint_left]
  intro x hx hx'
  rw [mem_iRowSet, tl_0, tl_1] at hx hx'
  exact hne (tile_unique hx hx')

omit [FloatOps F] in
theorem orows_disjoint : ∀ p ∈ (Finset.univ : Finset (Fin 2 × Fin 16)), ∀ p' ∈ (Finset.univ : Finset (Fin 2 × Fin 16)),
    p ≠ p' → Disjoint (oRowSet (tl p)) (oRowSet (tl p')) := by
  intro p _ p' _ hne
  rw [Finset.disjoint_left]
  intro x hx hx'
  rw [mem_oRowSet, tl_0, tl_1] at hx hx'
  exact hne (tile_unique hx hx')

omit [FloatOps F] in
theorem irows_cover : (Finset.univ : Finset (Fin 2 × Fin 16)).biUnion (fun p => iRowSet (tl p)) = Finset.univ := by
  ext x
  simp only [Finset.mem_biUnion, Finset.mem_univ, true_and, iff_true]
  have hx : (x 0).val < 16384 := (x 0).isLt
  obtain ⟨p, hp⟩ := tile_exists hx
  exact ⟨p, by rw [mem_iRowSet, tl_0, tl_1]; exact hp⟩

omit [FloatOps F] in
theorem orows_cover : (Finset.univ : Finset (Fin 2 × Fin 16)).biUnion (fun p => oRowSet (tl p)) = Finset.univ := by
  ext x
  simp only [Finset.mem_biUnion, Finset.mem_univ, true_and, iff_true]
  have hx : (x 0).val < 16384 := (x 0).isLt
  obtain ⟨p, hp⟩ := tile_exists hx
  exact ⟨p, by rw [mem_oRowSet, tl_0, tl_1]; exact hp⟩

/-! ## The arrays held whole are the arrays held by the tiles' pieces -/

omit [FloatOps F] in
/-- The list by rows. -/
theorem iPts_rows (d : Dev nD) (f : Buf (Elt F) (iLoc d)) :
    (bigSep Finset.univ fun p : Fin 2 × Fin 16 => iLoc d ↦[iRowSet (tl p)]{fullShare} f : sProp 𝕄) = iLoc d ↦{fullShare} f := by
  rw [← pointsTo_biUnion Finset.univ (ℓ := iLoc d) (fun p => iRowSet (tl p)) irows_disjoint, irows_cover]

omit [FloatOps F] in
/-- The result by rows. -/
theorem oPts_rows (d : Dev nD) (f : Buf (Elt F) (oLoc d)) :
    (bigSep Finset.univ fun p : Fin 2 × Fin 16 => oLoc d ↦[oRowSet (tl p)]{fullShare} f : sProp 𝕄) = oLoc d ↦{fullShare} f := by
  rw [← pointsTo_biUnion Finset.univ (ℓ := oLoc d) (fun p => oRowSet (tl p)) orows_disjoint, orows_cover]

omit [FloatOps F] in
/-- The table by shares: the full share is its two halves' sixteen pieces each. -/
theorem xPts_shares (d : Dev nD) (f : Buf (Elt F) (xLoc d)) :
    (bigSep Finset.univ fun p : Fin 2 × Fin 16 => xLoc d ↦{xq (tl p)} f : sProp 𝕄) = xLoc d ↦{fullShare} f := by
  rw [bigSep_univ_prod, pointsTo_piecesOf Finset.univ f (by decide : 0 < 2) fullShare]
  refine bigSep_congr fun c _ => ?_
  rw [pointsTo_piecesOf Finset.univ f (by decide : 0 < 16) (pieceOf fullShare 2 (by decide) c)]
  exact bigSep_congr fun i _ => rfl

/-- The three arrays, each tile's pieces at the result's contents `g`, are the three arrays held whole. -/
theorem tiles_eq (d : Dev nD) (g : Buf (Elt F) (oLoc d)) :
    (bigSep Finset.univ fun c : Fin 2 => bigSep Finset.univ fun i : Fin 16 =>
        iprop(iRowPts m d (coordsV c i) ∗ xShPts m d (coordsV c i) ∗ oRowPts d (coordsV c i) g))
      = (iprop(iPts m d ∗ xPts m d ∗ oPts d g) : sProp 𝕄) := by
  rw [← bigSep_univ_prod (fun p : Fin 2 × Fin 16 => iprop(iRowPts m d (tl p) ∗ xShPts m d (tl p) ∗ oRowPts d (tl p) g)),
    bigSep_sep', bigSep_sep']
  unfold iPts xPts oPts iRowPts xShPts oRowPts
  rw [iPts_rows, xPts_shares, oPts_rows]

/-! ## What the call hands out, and what it gets back -/

theorem P_st0 (d : Dev nD) (c : Fin ((K (F := F)).nCore 0)) :
    (P m).st 0 d c = bigSep Finset.univ fun i : Fin 16 => tileIn m d (coordsV (Fin.cast nCore_zero c) i) := rfl
theorem P_dn0 (d : Dev nD) (c : Fin ((K (F := F)).nCore 0)) :
    (P m).dn 0 d c = bigSep Finset.univ fun i : Fin 16 => tileOut m d (coordsV (Fin.cast nCore_zero c) i) := rfl

/-- The two SparseCores are handed, together, the list, the table and the result as launched. -/
theorem st0_eq (d : Dev nD) :
    (bigSep Finset.univ fun c : Fin ((K (F := F)).nCore 0) => (P m).st 0 d c)
      = (iprop(iPts m d ∗ xPts m d ∗ oPts d (m (oLoc d))) : sProp 𝕄) :=
  (bigSep_congr fun c _ => P_st0 m d c).trans
    ((bigSep_cores (F := F) fun c' : Fin 2 => bigSep Finset.univ fun i : Fin 16 => tileIn m d (coordsV c' i)).trans
      (tiles_eq m d (m (oLoc d))))

/-- They hand back, together, the list, the table, and the result holding the looked-up rows. -/
theorem dn0_eq (d : Dev nD) :
    (bigSep Finset.univ fun c : Fin ((K (F := F)).nCore 0) => (P m).dn 0 d c)
      = (iprop(iPts m d ∗ xPts m d ∗ oPts d (Gout m d)) : sProp 𝕄) :=
  (bigSep_congr fun c _ => P_dn0 m d c).trans
    ((bigSep_cores (F := F) fun c' : Fin 2 => bigSep Finset.univ fun i : Fin 16 => tileOut m d (coordsV c' i)).trans
      (tiles_eq m d (Gout m d)))

end Cert.Proof.Gather

end
-- ==== Proof.Main.lean ====
/-
  The whole run. Each tile's task is the one body proved at a symbolic place; a SparseCore's sixteen tasks take exactly what
  the call hands that SparseCore; on the TensorCore the call hands out the list and the result by rows and the table by read
  shares, gets back the list and the table as they were and the result at the looked-up rows, and the one host operation
  after it puts those rows under a trailing unit axis. So every execution ends with the result at `G list table` and the
  arguments unchanged.
-/
import proofs.«207625_g74337293959206_cont_9to1_m_975_9_alg».proof.Proof.Tile
import proofs.«207625_g74337293959206_cont_9to1_m_975_9_alg».proof.Proof.Split

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The obligation -/

theorem defs₀_vector (c : Fin τ.nSC) (s : Fin τ.nSub) :
    defs₀ (F := F) (.scVector c s) 0 ()
      = SparseCore.onTile hcore0 hsub0 (fun c s => cc0_gather_k (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A SparseCore's operands are its sixteen tasks' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tileIn m d (coordsV (Fin.cast nCore_zero c) i)) ⊢ |={Set.univ}=> iprop(
      (bigSep Finset.univ fun i : Fin ((K (F := F)).nSub 0) => tileIn m d (coordsV (Fin.cast nCore_zero c) (Fin.cast nSub_zero i)))
      ∗ ((bigSep Finset.univ fun i : Fin ((K (F := F)).nSub 0) => tileOut m d (coordsV (Fin.cast nCore_zero c) (Fin.cast nSub_zero i)))
          -∗ bigSep Finset.univ fun i : Fin 16 => tileOut m d (coordsV (Fin.cast nCore_zero c) i)))
  have e1 := bigSep_tasks (F := F) (fun i => tileIn m d (coordsV (Fin.cast nCore_zero c) i))
  have e2 := bigSep_tasks (F := F) (fun i => tileOut m d (coordsV (Fin.cast nCore_zero c) i))
  iintro H; imodintro
  isplitl [H]; · iapply (Entails.of_eq e1.symm); iexact H
  iintro H; iapply (Entails.of_eq e2); iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

open Idealize.ShloMosaic.StableHlo (held held_split held_sdiff_result wp_hlo_within)

abbrev a0' : DevRef τ sig := Proc.devRef .tc (main_arg0 : Ref sig .tc)
abbrev a1' : DevRef τ sig := Proc.devRef .tc (main_arg1 : Ref sig .tc)
abbrev o' : DevRef τ sig := Proc.devRef .tc (main_v0 : Ref sig .tc)
abbrev r' : DevRef τ sig := Proc.devRef .tc (main_v1 : Ref sig .tc)

/-- The host operation after the call: the looked-up rows under a trailing unit axis. -/
abbrev tail1 : (⟨S16384x128, .f32⟩ : BufTy).Contents (Elt F) → (⟨S16384x128x1, .f32⟩ : BufTy).Contents (Elt F) :=
  broadcastInDim S16384x128x1 ![0, 1] bcast_S16384x128_S16384x128x1_0_1
abbrev opB : HloOp τ sig (Elt F) := StableHlo.unary main_v0 main_v1 (tail1 (F := F))

/-- The TensorCore's arrays, all unscoped: the list, the table, the rows, the result. -/
abbrev S4 : Finset (DevRef τ sig) := {a0', a1', o', r'}

omit [FloatOps F] in
theorem held_S4 (d : Dev nD) (W : Valuation τ sig (Elt F)) :
    (held (T d) S4 W : sProp 𝕄) = iprop((iLoc d ↦{fullShare} W a0') ∗ (xLoc d ↦{fullShare} W a1') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays after the call: as launched, but the rows at the looked-up rows. -/
def V1 (d : Dev nD) : Valuation τ sig (Elt F) := Function.update (fun b => m (d, b)) o' (Gout m d)

theorem V1_a0 (d : Dev nD) : V1 m d a0' = m (iLoc d) := Function.update_of_ne (show a0' ≠ o' by decide) _ _
theorem V1_a1 (d : Dev nD) : V1 m d a1' = m (xLoc d) := Function.update_of_ne (show a1' ≠ o' by decide) _ _
theorem V1_o (d : Dev nD) : V1 m d o' = Gout m d := Function.update_self _ _ _
theorem V1_r (d : Dev nD) : V1 m d r' = m (rLoc d) := Function.update_of_ne (show r' ≠ o' by decide) _ _

theorem hB : (opB (F := F)).bufs ⊆ S4 := show ({o', r'} : Finset (DevRef τ sig)) ⊆ S4 by decide

/-- What @main leaves the claim: the list and the table as launched, the result at the looked-up rows under the unit axis. -/
abbrev FIN (d : Dev nD) : sProp 𝕄 := iprop(iPts m d ∗ xPts m d ∗ rLoc d ↦{fullShare} tail1 (F := F) (Gout m d))

theorem held_after (d : Dev nD) :
    (held (T d) S4 ((opB (F := F)).result (V1 m d)) : sProp 𝕄)
      = iprop(iPts m d ∗ xPts m d ∗ (oLoc d ↦{fullShare} Gout m d) ∗ rLoc d ↦{fullShare} tail1 (F := F) (Gout m d)) := by
  rw [held_S4,
    (opB (F := F)).result_of_not_mem (V1 m d) (b := a0') (show a0' ∉ ({r'} : Finset (DevRef τ sig)) by decide),
    (opB (F := F)).result_of_not_mem (V1 m d) (b := a1') (show a1' ∉ ({r'} : Finset (DevRef τ sig)) by decide),
    (opB (F := F)).result_of_not_mem (V1 m d) (b := o') (show o' ∉ ({r'} : Finset (DevRef τ sig)) by decide),
    V1_a0, V1_a1, V1_o]
  rw [show (opB (F := F)).result (V1 m d) r' = tail1 (F := F) (Gout m d) from
    (StableHlo.unary_result main_v0 main_v1 (tail1 (F := F)) _ _ (V1 m d)).trans (congrArg _ (V1_o m d))]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho, Hr⟩, -, -⟩, -⟩
  -- the call: the list and the rows by tiles, the table by shares, to the two SparseCores and back
  iapply ((K (F := F)).wp_run (D (F := F)) 𝒱 (EH := EH) (P := P m) κ d 0) $$ [Hst Hi Hx Ho Hb Hr]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  -- the trailing unit axis
  iapply (wp_hlo_within 𝒱 (SparseCore.T d) none Set.univ (op := opB) (S := S4) hB (V := V1 m d)) $$ [Hb Hi Hx Ho Hr]
  · isplitl [Hb]; · iexact Hb
    rw [held_S4, V1_a0, V1_a1, V1_o, V1_r]
    isplitl [Hi]; · iexact Hi
    isplitl [Hx]; · iexact Hx
    isplitl [Ho]; · iexact Ho
    iexact Hr
  iintro ⟨Hb, Hheld⟩
  ihave Hh := (Entails.of_eq (held_after (F := F) m d)) $$ Hheld
  icases Hh with ⟨Hi, Hx, -, Hr⟩
  rw [wp_ret]; imodintro; imodintro
  isplitl [Hst]; · iexact Hst
  isplitl [Hi]; · iexact Hi
  isplitl [Hx]; · iexact Hx
  iexact Hr

def fq (d : Dev nD) (s' : Phys nD τ sig (Elt F)) : Prop :=
  s'.mem.mem (rLoc d) = tail1 (F := F) (Gout m d) ∧ s'.mem.mem (iLoc d) = m (iLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := tail1 (F := F) (Gout m d))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (rLoc c) = tail1 (F := F) (Gout m c) ∧ r.2.mem (iLoc c) = m (iLoc c) ∧ r.2.mem (xLoc c) = m (xLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.Gather

end
-- ==== Proof.RefPre.lean ====
/-
  From the stated input domain to the range of the row numbers. The domain predicate is the conjunction of "every
  table entry is finite" and "every row number w has 0 ≤ w ≤ 8191 as a signed word", each an all-reduction by "and".
  Only the second conjunct is opened: a reduction by "and" that is 1 had a 1 at every entry, an "and" that is 1 had two
  1s, and a signed word between 0 and 8191 reads the same unsigned, so it is below 8192. The float conjunct is never
  looked at, so the statement holds at every float instance.
-/
import proofs.«207625_g74337293959206_cont_9to1_m_975_9_alg».proof.Pre_input_domain
import proofs.«207625_g74337293959206_cont_9to1_m_975_9_alg».proof.Proof.Spec
import Idealize.ShloMosaic.Lib.ReduceAll

namespace Cert.Proof.RefSide

open Idealize.ShloMosaic Idealize.ShloMosaic.ValueIdx

/-- The scalar shape has one index. -/
instance : Subsingleton Cert.Pre_input_domain.S_.Idx := ⟨fun a b => funext fun d => d.elim0⟩

/-- A signed word between 0 and 8191 is, unsigned, below 8192. -/
theorem toNat_lt_of_signed_range (w : BitVec 32) (h0 : (0#32 : BitVec 32).toInt ≤ w.toInt)
    (h1 : w.toInt ≤ (8191#32 : BitVec 32).toInt) : w.toNat < 8192 := by
  have e0 : (0#32 : BitVec 32).toInt = 0 := by decide
  have e1 : (8191#32 : BitVec 32).toInt = 8191 := by decide
  rw [e0] at h0
  rw [e1] at h1
  have hlt : 2 * w.toNat < 2 ^ 32 := BitVec.toInt_pos_iff.1 h0
  rw [BitVec.toInt_eq_toNat_of_lt hlt] at h1
  omega

/-- Under the input domain every row number names a row of the table. -/
theorem inRange_of_pre {F : FTy → Type} [FloatOps F] [Cert.Pre_input_domain.Facts]
    (a0 : IVec Cert.Pre_input_domain.S16384 32) (a1 : FVec F Cert.Pre_input_domain.S8192x128 .f32)
    (h : Cert.Pre_input_domain.fn (F := F) a0 a1 = fun _ => 1#1) : Cert.Proof.Spec.InRange a0 := by
  intro j
  have e := congrFun h ix0
  dsimp only [Cert.Pre_input_domain.fn] at e
  obtain ⟨-, e9⟩ := IntOp.andi_eq_one.1 e
  have e8 := Host.reduce_andi_all _ _ _ _ _ e9 j
  obtain ⟨e5, e7⟩ := IntOp.andi_eq_one.1 e8
  exact toNat_lt_of_signed_range (a0 j) (IntOp.cmpi_sge.1 e5) (IntOp.cmpi_sle.1 e7)

end Cert.Proof.RefSide
-- ==== Proof.LibTakeRows.lean ====
/-
  Two general facts about host operations, for a row lookup `x[idx]` of a rank-2 table.

  (1) `stablehlo.gather` of a rank-2 operand `[N, C]` at a column `[R, 1]` of start indices, with offset_dims `[1]`,
  collapsed_slice_dims `[0]`, start_index_map `[0]`, index_vector_dim 1 and slice_sizes `[1, C]` — what
  `jnp.take(x, idx, axis=0)` lowers to — read at result index `(r, j)`: the operand at row `idx[r, 0]`, read as a
  signed integer and clamped into `[0, N − 1]`, and column `j`. The argument is the one for a rank-1 operand
  (`ValueIdx.gather_take_apply`), with one more operand axis: axis 0 is collapsed and takes its coordinate from the
  clamped start index, axis 1 is the offset axis and takes the result's second coordinate.

  (2) A `stablehlo.reduce` by `and` of one-bit words that are all 1, from the initial value 1, is 1 at every result
  index, whatever axes it reduces: a left fold by `and` from 1 over 1s stays 1.
-/
import Idealize.ShloMosaic.PureOps
import Idealize.ShloMosaic.PureOps.Reduce
import Idealize.ShloMosaic.Lib.ValueIdx

noncomputable section

namespace Cert.LibTakeRows

open Idealize.ShloMosaic Idealize.ShloMosaic.ValueIdx

/-! ## The gather of rows, read at an index -/

section TakeRows
variable {α : Type}

/-- The dimension numbers of a row lookup, for an operand `[N, C]`, start indices `[R, 1]` and result `[R, C]`. -/
abbrev takeRowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, j)`. -/
abbrev takeRowIdx {R C : Nat} (y : (⟨2, ![R, C]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, j)`: the operand at row `idx[r, 0]`, read signed and clamped into `[0, N − 1]`, and
    column `j`. -/
theorem gather_takeRows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (takeRowsDims N R C wf) x idx y
      = x (ix2 ⟨min (idx (takeRowIdx y)).toInt.toNat (N - 1), by omega⟩ ⟨(y 1).val, idx2_lt1 y⟩) := by
  unfold Host.gather
  congr 1
  funext a
  refine Fin.ext ?_
  show (takeRowsDims N R C wf).start y idx a + (takeRowsDims N R C wf).batchCoord y a + (takeRowsDims N R C wf).offCoord y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (takeRowsDims N R C wf).startIndexMap from List.mem_singleton.mpr rfl)]
    have hsi : (takeRowsDims N R C wf).siIdx y ⟨List.idxOf (⟨0, by decide⟩ : Fin 2) (takeRowsDims N R C wf).startIndexMap,
        List.idxOf_lt_length_iff.2 (List.mem_singleton.mpr rfl)⟩ = takeRowIdx y := by
      funext b; refine Fin.ext ?_
      match b with
      | ⟨0, _⟩ => rfl
      | ⟨1, _⟩ => rfl
    rw [hsi]
    rfl
  | ⟨1, _⟩ =>
    have hns : (⟨1, by decide⟩ : Fin 2) ∉ (takeRowsDims N R C wf).startIndexMap :=
      fun h => Nat.one_ne_zero (congrArg Fin.val (List.mem_singleton.mp h))
    unfold GatherDims.start
    rw [dif_neg hns]
    simp only [Nat.add_zero, Nat.zero_add]
    rfl

end TakeRows

/-! ## A reduce by `and` of ones -/

/-- A left fold by `and` from 1 over words that are all 1 is 1. -/
theorem foldl_andi_of_all {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all f hf l

/-- A `stablehlo.reduce` by `and`, from 1, of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all x hx _

end Cert.LibTakeRows

end
-- ==== Proof.RefValue.lean ====
/-
  What the reference computes, as one term of its two arguments, and that term read at an index when every row number
  names a row of the table.

  The reference first normalizes a row number w: w + 8192 if w < 0 (signed), else w. It then tests 0 ≤ w' ≤ 8191 on the
  normalized numbers (as a column, reduced by "and" over its unit axis), gathers the table's rows at the normalized
  numbers (each start index read signed and clamped into [0, 8191]), replaces the rows whose test failed by a NaN
  literal, and appends a unit axis. When 0 ≤ w ≤ 8191 for every w: normalization is the identity, every test passes, the
  clamp is the identity, and no row is replaced; so entry (p, j, 0) of the result is the table at (list[p], j).
  Nothing here depends on the float type: elements are only moved, and the NaN literal is never selected.
-/
import proofs.«207625_g74337293959206_cont_9to1_m_975_9_alg».proof.ReferenceIdeal
import proofs.«207625_g74337293959206_cont_9to1_m_975_9_alg».proof.Proof.Spec
import proofs.«207625_g74337293959206_cont_9to1_m_975_9_alg».proof.Proof.LibTakeRows
import Idealize.ShloMosaic.Lib.Affine
import Idealize.ShloMosaic.Lib.Pipeline.Value

noncomputable section

namespace Cert.Proof.RefSide

open Idealize.ShloMosaic Idealize.ShloMosaic.ValueIdx
open Cert.ReferenceIdeal Cert.ReferenceIdeal.Facts₀ Cert.Proof.Spec

/-! ## One word in range -/

/-- A word below 8192 is nonnegative as a signed word and reads the same signed and unsigned. -/
theorem toInt_of_lt {w : BitVec 32} (h : w.toNat < 8192) : w.toInt = w.toNat :=
  BitVec.toInt_eq_toNat_of_lt (by omega)

theorem not_slt_zero {w : BitVec 32} (h : w.toNat < 8192) : ¬IntOp.cmpi .slt w 0#32 = 1#1 := by
  rw [IntOp.cmpi_slt, toInt_of_lt h, show (0#32 : BitVec 32).toInt = 0 from by decide]
  omega

theorem sge_zero {w : BitVec 32} (h : w.toNat < 8192) : IntOp.cmpi .sge w 0#32 = 1#1 := by
  rw [IntOp.cmpi_sge, toInt_of_lt h, show (0#32 : BitVec 32).toInt = 0 from by decide]
  omega

theorem sle_last {w : BitVec 32} (h : w.toNat < 8192) : IntOp.cmpi .sle w 8191#32 = 1#1 := by
  rw [IntOp.cmpi_sle, toInt_of_lt h, show (8191#32 : BitVec 32).toInt = 8191 from by decide]
  omega

variable {F : FTy → Type} [FloatOps F] [Cert.ReferenceIdeal.Facts]

/-! ## The reference's term -/

/-- The normalized row numbers: w + 8192 where w < 0, else w. -/
def normIdx (idx : IVec S16384 32) : IVec S16384 32 :=
  select (cmpi .slt idx (broadcastInDim S16384 ![] bcast_S_S16384 (constantI S_ 32 0#32)))
    (addi idx (broadcastInDim S16384 ![] bcast_S_S16384 (constantI S_ 32 8192#32))) idx

/-- The normalized row numbers as a column of start indices. -/
def startCol (idx : IVec S16384 32) : IVec S16384x1 32 :=
  broadcastInDim S16384x1 ![0] bcast_S16384_S16384x1_0 (normIdx idx)

/-- The test 0 ≤ w' ≤ 8191 on the column, reduced by "and" over the unit axis. -/
def rowMask (idx : IVec S16384 32) : IVec S16384 1 :=
  Host.reduce IntOp.andi
    (andi (cmpi .sge (startCol idx) (broadcastInDim S16384x1 ![] bcast_S_S16384x1 (constantI S_ 32 0#32)))
      (cmpi .sle (startCol idx)
        (broadcastInDim S16384x1 ![0, 1] bcast_S1x1_S16384x1_0_1
          (broadcastInDim S1x1 ![1] bcast_S1_S1x1_1 (constantI S1 32 8191#32)))))
    (constantI S_ 1 1#1) reducesTo_S16384x1_S16384_d1 h_S_

/-- The reference's result as one term of the list and the table. -/
def refOut (idx : IVec S16384 32) (tbl : FVec F S8192x128 .f32) : FVec F S16384x128x1 .f32 :=
  broadcastInDim S16384x128x1 ![0, 1] bcast_S16384x128_S16384x128x1_0_1
    (select (broadcastInDim S16384x128 ![0] bcast_S16384_S16384x128_0 (rowMask idx))
      (Host.gather gather_S8192x128_S16384x1_S16384x128_1_0_n_n_0_1_1128 tbl (startCol idx))
      (broadcastInDim S16384x128 ![] bcast_S_S16384x128 (constant S_ .f32 0x7FC00000#32)))

/-! ## The term's pieces under the range hypothesis -/

/-- Normalization is the identity on row numbers in range. -/
theorem normIdx_eq {idx : IVec S16384 32} (h : InRange idx) : normIdx idx = idx := by
  funext j
  show Scalar.select (IntOp.cmpi .slt (idx j) 0#32) _ (idx j) = idx j
  exact if_neg (not_slt_zero (h j))

/-- The column at an index whose first coordinate is p is the normalized number at p. -/
theorem startCol_apply (idx : IVec S16384 32) (y : S16384x1.Idx) (p : Fin 16384) (hp : p.val = (y 0).val) :
    startCol idx y = normIdx idx (ix1 p) :=
  broadcastInDim_apply _ _ _ y (ix1 p) (fun a => match a with | ⟨0, _⟩ => hp)

/-- Every test passes. -/
theorem rowMask_eq {idx : IVec S16384 32} (h : InRange idx) (j : S16384.Idx) : rowMask idx j = 1#1 := by
  refine Cert.LibTakeRows.reduce_andi_of_all _ _ _ _ (fun y => ?_) (fun _ => rfl) j
  have hy : (startCol idx y).toNat < 8192 := by
    rw [startCol_apply idx y ⟨(y 0).val, idx2_lt0 y⟩ rfl, normIdx_eq h]
    exact h _
  show IntOp.andi (IntOp.cmpi .sge (startCol idx y) 0#32) (IntOp.cmpi .sle (startCol idx y) 8191#32) = 1#1
  exact IntOp.andi_eq_one.2 ⟨sge_zero hy, sle_last hy⟩

/-! ## The term at an index -/

/-- THE REFERENCE'S TERM IS THE LOOKED-UP ROWS when every row number is in range. -/
theorem refOut_eq_G {idx : IVec S16384 32} (h : InRange idx) (tbl : FVec F S8192x128 .f32) :
    refOut idx tbl = G idx tbl := by
  funext i
  obtain ⟨p, q, z, rfl⟩ : ∃ (p : Fin 16384) (q : Fin 128) (z : Fin 1), i = ix3 p q z := ⟨i 0, i 1, i 2, eq_ix3 i⟩
  show refOut idx tbl (ix3 p q z) = tbl (ix2 (rowOf (idx (ix1 p))) q)
  unfold refOut
  -- the trailing unit axis
  refine (broadcastInDim_apply _ _ _ (ix3 p q z) (ix2 p q) (fun a => match a with | ⟨0, _⟩ => rfl | ⟨1, _⟩ => rfl)).trans ?_
  -- the select, on a test that passed
  have hm : broadcastInDim S16384x128 ![0] bcast_S16384_S16384x128_0 (rowMask idx) (ix2 p q) = 1#1 :=
    (broadcastInDim_apply _ _ _ (ix2 p q) (ix1 p) (fun a => match a with | ⟨0, _⟩ => rfl)).trans (rowMask_eq h _)
  refine (select_apply _ _ _ (ix2 p q)).trans ?_
  rw [hm, select_one]
  -- the gather, at a start index the clamp leaves alone
  refine (Cert.LibTakeRows.gather_takeRows_apply (N := 8192) (R := 16384) (C := 128) (by decide)
    gather_S8192x128_S16384x1_S16384x128_1_0_n_n_0_1_1128_wf tbl (startCol idx) (ix2 p q)).trans ?_
  have hc : startCol idx (Cert.LibTakeRows.takeRowIdx (ix2 p q)) = idx (ix1 p) :=
    (startCol_apply idx _ p rfl).trans (congrFun (normIdx_eq h) _)
  refine congrArg tbl (funext fun a => ?_)
  match a with
  | ⟨0, _⟩ =>
    refine Fin.ext ?_
    show min (startCol idx (Cert.LibTakeRows.takeRowIdx (ix2 p q))).toInt.toNat (8192 - 1) = (rowOf (idx (ix1 p))).val
    rw [hc, rowOf_val_of_lt (h _), toInt_of_lt (h _), Int.toNat_natCast]
    have := h (ix1 p)
    omega
  | ⟨1, _⟩ => rfl

end Cert.Proof.RefSide

end
-- ==== Proof.RefSide.lean ====
/-
  The reference's run. Its program is a straight line of twenty-four host operations once the two module-local functions
  (the row lookup, and the select it calls) are unfolded at their calls. Every weakly fair execution of such a line
  terminates, and each buffer ends at the fold of the operations' results over the launch contents. At the result buffer
  that fold is the reference's one term of the two argument buffers; at the argument buffers it is what was there, since no
  operation writes them. With every row number in range, the term is the looked-up rows.
-/
import Idealize.ShloMosaic.Lib.StableHlo.Run
import proofs.«207625_g74337293959206_cont_9to1_m_975_9_alg».proof.Proof.Gen.ReferenceIdeal
import proofs.«207625_g74337293959206_cont_9to1_m_975_9_alg».proof.Proof.RefValue

noncomputable section

namespace Cert.Proof.RefSide

open Cert.ReferenceIdeal Cert.ReferenceIdeal.Facts₀
open Idealize.ShloMosaic Idealize.ShloMosaic.TcCoe Idealize.SL.Sem Idealize.ShloMosaic.StableHlo

variable {F : FTy → Type} [FloatOps F] [Cert.ReferenceIdeal.Facts]

/-- The program's operations in order, the calls unfolded: the row lookup's twenty-three (the select of the
    normalization among them, seventh) into the buffers of its call record, then the trailing unit axis. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 8192#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 8191#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S8192x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    unary main_v0 main_v1 (broadcastInDim S16384x128x1 ![0, 1] bcast_S16384x128_S16384x128x1_0_1 : (⟨S16384x128, .f32⟩ : BufTy).Contents (Elt F) → (⟨S16384x128x1, .f32⟩ : BufTy).Contents (Elt F)) ]

set_option maxRecDepth 1024 in
/-- The program is that straight line: the two functions unfolded at their calls and the sequencing reassociated,
    both sides are one chain of host steps. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device's own references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..⟩

attribute [local irreducible] Host.reduce Host.gather in
set_option maxRecDepth 8192 in
/-- The fold at the result buffer is the reference's term of the two argument buffers: each operation's result decides
    whether the buffer read is the one it writes, and the typed references' transports are the identity at these literal
    references. The reduction and the gather stay folded meanwhile: the equation never looks inside them. -/
theorem out_eq (V : Valuation τ sig (Elt F)) :
    after ops V (main_v1 : DevRef τ sig) = refOut (V (main_arg0 : DevRef τ sig)) (V (main_arg1 : DevRef τ sig)) := by
  after_results
  rfl

/-- No operation writes the list of row numbers. -/
theorem arg0_eq (V : Valuation τ sig (Elt F)) : after ops V (main_arg0 : DevRef τ sig) = V (main_arg0 : DevRef τ sig) := by
  simp only [after_cons, after_nil]
  rfl

/-- No operation writes the table. -/
theorem arg1_eq (V : Valuation τ sig (Elt F)) : after ops V (main_arg1 : DevRef τ sig) = V (main_arg1 : DevRef τ sig) := by
  simp only [after_cons, after_nil]
  rfl

/-- Every weakly fair execution of the program terminates, each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Proof.RefSide

namespace Cert.Proof.RefSide

open Idealize.ShloMosaic Idealize.SL.Sem

/-- THE REFERENCE'S RUN: with every row number in range, every weakly fair execution terminates with the result buffer at
    the looked-up rows and the two argument buffers unchanged. -/
theorem run [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg)
    (hin : ∀ c : Dev Cert.ReferenceIdeal.nD, Cert.Proof.Spec.InRange (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v1)
        = Cert.Proof.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c Cert.ReferenceIdeal.main_v1).trans ((out_eq _).trans (refOut_eq_G (hin c) _)),
      (h c Cert.ReferenceIdeal.main_arg0).trans (arg0_eq _),
      (h c Cert.ReferenceIdeal.main_arg1).trans (arg1_eq _)⟩)
    (run_fold m ρ)

end Cert.Proof.RefSide

end
-- ==== Proof.lean ====
/-
  The claim: a row gather on the SparseCores against `jnp.take(table, list, axis=0)[:, :, None]`.

  The kernel: 32 tiles (2 SparseCores x 16 vector subcores); tile `(c, s)` copies list entries `1024 s + 512 c … + 511` into its
  index scratch, gathers the table's rows those entries name into its row scratch, and copies that out to the same rows of the
  result; a host operation then adds a trailing unit axis. The reference: the list's negative entries are wrapped by the
  table's height, the rows are gathered with the start index clamped, and rows whose entry was out of range are replaced by a
  fill value; the same trailing axis. Under the precondition — every entry between 0 and 8191 — nothing is wrapped, clamped or
  filled, and both are `G list table`: at `(p, j, 0)` the table at `(list[p], j)` (Proof/Spec.lean). No float operation is
  applied to an element on either side, so the equality is an equality of indices and holds at any float instance.

  The kernel's run is proved once, for any float instance (Proof/Setup.lean, TileValue.lean, Tile.lean, RowSets.lean, Split.lean,
  Main.lean): its post names the result as `G list table` and keeps the arguments, so each frame is that run with the value
  dropped and the value claim is its instance at the extended reals. The printed word-level program and the printed idealized
  program are the same text (the idealization rewrote nothing), so the run at the word-level instance is the word-level
  program's. The reference's run and value are Proof/RefPre.lean, RefValue.lean, RefSide.lean.
-/
import proofs.«207625_g74337293959206_cont_9to1_m_975_9_alg».proof.Defs
import proofs.«207625_g74337293959206_cont_9to1_m_975_9_alg».proof.Proof.Gen.Kernel
import proofs.«207625_g74337293959206_cont_9to1_m_975_9_alg».proof.Proof.Gen.Kernel.Skeleton
import proofs.«207625_g74337293959206_cont_9to1_m_975_9_alg».proof.Proof.Gen.KernelIdeal
import proofs.«207625_g74337293959206_cont_9to1_m_975_9_alg».proof.Proof.Gen.KernelIdeal.Skeleton
import proofs.«207625_g74337293959206_cont_9to1_m_975_9_alg».proof.Proof.Gen.ReferenceIdeal
import proofs.«207625_g74337293959206_cont_9to1_m_975_9_alg».proof.Proof.Gen.Pre_input_domain
import Idealize.ShloMosaic.Adequacy
import Idealize.ShloMosaic.Init
import proofs.«207625_g74337293959206_cont_9to1_m_975_9_alg».proof.Proof.Main
import proofs.«207625_g74337293959206_cont_9to1_m_975_9_alg».proof.Proof.RefPre
import proofs.«207625_g74337293959206_cont_9to1_m_975_9_alg».proof.Proof.RefSide

noncomputable section

namespace Cert.Proof

open Idealize.ShloMosaic Idealize.SL.Sem

/-- The host operation after the call, applied to the looked-up rows, gives the specification's result: the trailing unit
    axis reads the rows at the first two coordinates. -/
theorem tail_eq {F : FTy → Type} [FloatOps F] (idx : Spec.SL.Idx → BitVec 32) (tbl : Spec.ST.Idx → Elt F .f32) :
    Gather.tail1 (F := F) (Spec.rowsOf idx tbl) = Spec.G idx tbl := by
  funext i
  exact broadcastInDim_apply _ _ _ i (ValueIdx.ix2 (i 0) (i 1)) (fun a => by match a with | ⟨0, _⟩ => rfl | ⟨1, _⟩ => rfl)

/-- The precondition puts every list entry in the table's range, on every device. -/
theorem preOK_of_pre {F : FTy → Type} [FloatOps F]
    (m : (ℓ : Loc Cert.KernelIdeal.nD Cert.KernelIdeal.τ Cert.KernelIdeal.sig) → Buf (Elt F) ℓ)
    (h : ∀ c : Dev Cert.KernelIdeal.nD,
      Cert.Pre_input_domain.fn (F := F) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    Gather.PreOK m :=
  fun d => RefSide.inRange_of_pre _ _ (h d)

/-- The kernel's run with the result named, at any float instance. -/
theorem kernel_run {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ c : Dev Cert.KernelIdeal.nD,
      Cert.Pre_input_domain.fn (F := F) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    θ_run (Cert.KernelIdeal.defs (F := F)) (Cert.KernelIdeal.threads (F := F)) ⟨m, fun _ => 0, ρ⟩ (fun r => ∀ c : Dev Cert.KernelIdeal.nD,
      r.2.mem ((c.tc : Thread Cert.KernelIdeal.nD Cert.KernelIdeal.τ).loc Cert.KernelIdeal.main_v1)
        = Spec.G (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ hr c => ⟨(hr c).1.trans (tail_eq _ _), (hr c).2⟩)
    (Gather.run_main (F := F) m ρ (preOK_of_pre m h))

theorem frame_k : Cert.frame_Kernel := fun m ρ hpre =>
  (θ_run (Cert.KernelIdeal.defs (F := Bits)) _ _).mono (fun _ hr c => (hr c).2) (kernel_run (F := Bits) m ρ hpre)

theorem frame_ki : Cert.frame_KernelIdeal := fun m ρ hpre =>
  (θ_run (Cert.KernelIdeal.defs (F := Ideal)) _ _).mono (fun _ hr c => (hr c).2) (kernel_run (F := Ideal) m ρ hpre)

theorem frame_ri : Cert.frame_ReferenceIdeal := fun m ρ hpre =>
  (θ_run (Cert.ReferenceIdeal.defs (F := Ideal)) _ _).mono (fun _ hr c => (hr c).2)
    (RefSide.run m ρ (fun c => RefSide.inRange_of_pre _ _ (hpre c)))

/-- The idealization rewrote nothing: there is nothing to preserve. -/
theorem preserves : Cert.preserves_Kernel_KernelIdeal := trivial

/-- Both programs end with the result at `G list table` of arguments that agree. -/
theorem algebraic : Cert.algebraic_KernelIdeal_ReferenceIdeal := by
  intro m ρ m' ρ' hpre hagree
  refine ⟨fun c => Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), kernel_run (F := Ideal) m ρ hpre, ?_⟩
  have hin : ∀ c : Dev Cert.ReferenceIdeal.nD,
      Spec.InRange (m' ((c.tc : Thread Cert.ReferenceIdeal.nD Cert.ReferenceIdeal.τ).loc Cert.ReferenceIdeal.main_arg0)) := fun c => by
    rw [(hagree c).1]; exact RefSide.inRange_of_pre _ _ (hpre c)
  refine (θ_run (Cert.ReferenceIdeal.defs (F := Ideal)) _ _).mono (fun _ hr c => ⟨?_, (hr c).2⟩) (RefSide.run m' ρ' hin)
  rw [(hr c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
